-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S1x4 : Shape := ⟨2, ![1, 4]⟩
abbrev S9 : Shape := ⟨1, ![9]⟩
abbrev S3x1 : Shape := ⟨2, ![3, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S9 : S_.BroadcastsInDim S9 (![] : Fin 0 → Fin S9.rank)
  reducesTo_S9_S_d0 : S9.ReducesTo [0] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_v13 : IVec S_ 1) (main_v16 : IVec S3x1 1) : IVec S_ 1 :=
  let main_c_5 : IVec S_ 1 := constantI S_ 1 1#1
  let main_v17 : IVec S_ 1 := (fun x v => Host.reduce IntOp.andi x v reducesTo_S3x1_S_d0_1 h_S_) main_v16 main_c_5
  let main_v18 : IVec S_ 1 := andi main_v13 main_v17
  main_v18

def fn {F : FTy → Type} [FloatOps F] (main_arg0 : FVec F S8388608x4 .f32) (main_arg1 : FVec F S1x4 .f32) (main_arg2 : FVec F S9 .f32) (main_arg3 : FVec F S3x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S1x4 .f32 := Host.absf main_arg1
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S3x1 .f32 := Host.absf main_arg3
  let main_cst_4 : FVec F S_ .f32 := constant S_ .f32 0x7F800000#32
  let main_v15 : FVec F S3x1 .f32 := broadcastInDim S3x1 ![] bcast_S_S3x1 main_cst_4
  let main_v16 : IVec S3x1 1 := cmpf .olt main_v14 main_v15
  fn_part1 (F := F) main_v13 main_v16
-- ==== Kernel.lean ====
abbrev S8388608x4 : Shape := ⟨2, ![8388608, 4]⟩
abbrev S1x4 : Shape := ⟨2, ![1, 4]⟩
abbrev S9 : Shape := ⟨1, ![9]⟩
abbrev S3x1 : Shape := ⟨2, ![3, 1]⟩
abbrev S1x9 : Shape := ⟨2, ![1, 9]⟩
abbrev S1x3 : Shape := ⟨2, ![1, 3]⟩
abbrev S8388608x3 : Shape := ⟨2, ![8388608, 3]⟩
abbrev S262144x4 : Shape := ⟨2, ![262144, 4]⟩
abbrev S262144x3 : Shape := ⟨2, ![262144, 3]⟩
abbrev S262144 : Shape := ⟨1, ![262144]⟩
abbrev S262144x1 : Shape := ⟨2, ![262144, 1]⟩
abbrev S1x1 : Shape := ⟨2, ![1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8388608x4, .f32⟩
  | .hbm, ⟨1, _⟩ => ⟨S1x4, .f32⟩
  | .hbm, ⟨2, _⟩ => ⟨S9, .f32⟩
  | .hbm, ⟨3, _⟩ => ⟨S3x1, .f32⟩
  | .hbm, ⟨4, _⟩ => ⟨S1x9, .f32⟩
  | .hbm, ⟨5, _⟩ => ⟨S1x3, .f32⟩
  | .hbm, ⟨6, _⟩ => ⟨S8388608x3, .f32⟩
  | .local _ .vmem, ⟨0, _⟩ => ⟨S262144x4, .f32⟩
  | .local _ .vmem, ⟨1, _⟩ => ⟨S262144x4, .f32⟩
  | .local _ .vmem, ⟨2, _⟩ => ⟨S1x4, .f32⟩
  | .local _ .vmem, ⟨3, _⟩ => ⟨S1x9, .f32⟩
  | .local _ .vmem, ⟨4, _⟩ => ⟨S1x3, .f32⟩
  | .local _ .vmem, ⟨5, _⟩ => ⟨S262144x3, .f32⟩
  | .local _ .vmem, ⟨6, _⟩ => ⟨S262144x3, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S262144x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S262144x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S9_S1x9 : S9.ShapeCasts S1x9
  shapeCasts_S3x1_S1x3 : S3x1.ShapeCasts S1x3
  inb_S262144x4_S262144x4_0_0 : ∀ a, (![0, 0] : Fin 2 → Nat) a + S262144x4.size a ≤ S262144x4.size a
  h_S262144x4 : 0 < S262144x4.numel
  inb_S1x4_S1x4_0_0 : ∀ a, (![0, 0] : Fin 2 → Nat) a + S1x4.size a ≤ S1x4.size a
  h_S1x4 : 0 < S1x4.numel
  broadcasts_S1x4_S262144x4 : S1x4.Broadcasts S262144x4
  reduces_S262144x4_S262144 : S262144x4.Reduces [1] S262144
  shapeCasts_S262144_S262144x1 : S262144.ShapeCasts S262144x1
  inb_S1x9_S1x9_0_0 : ∀ a, (![0, 0] : Fin 2 → Nat) a + S1x9.size a ≤ S1x9.size a
  h_S1x9 : 0 < S1x9.numel
  shapeCasts_S1x9_S1x9 : S1x9.ShapeCasts S1x9
  slices_S1x9_o0_0_S1x1 : S1x9.Slices ![0, 0] S1x1
  inpos_S1x1_p0_0 : ∀ a, (![0, 0] : Fin 2 → Nat) a < S1x1.size a
  slices_S1x9_o0_1_S1x1 : S1x9.Slices ![0, 1] S1x1
  slices_S1x9_o0_2_S1x1 : S1x9.Slices ![0, 2] S1x1
  slices_S1x9_o0_3_S1x1 : S1x9.Slices ![0, 3] S1x1
  slices_S1x9_o0_4_S1x1 : S1x9.Slices ![0, 4] S1x1
  slices_S1x9_o0_5_S1x1 : S1x9.Slices ![0, 5] S1x1
  slices_S1x9_o0_6_S1x1 : S1x9.Slices ![0, 6] S1x1
  slices_S1x9_o0_7_S1x1 : S1x9.Slices ![0, 7] S1x1
  slices_S1x9_o0_8_S1x1 : S1x9.Slices ![0, 8] S1x1
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S262144x1_S262144x3 : S262144x1.Broadcasts S262144x3
  broadcasts_S1x3_S262144x3 : S1x3.Broadcasts S262144x3
  reduces_S262144x3_S262144 : S262144x3.Reduces [1] S262144
  inb_S262144x3_S262144x3_0_0 : ∀ a, (![0, 0] : Fin 2 → Nat) a + S262144x3.size a ≤ S262144x3.size a
  h_S262144x3 : 0 < S262144x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x4.size a ≤ S8388608x4.size a
  hwx0_0 : ∀ i : grid0.Coords, EltTy.bits .f32 = 32 ∨ (Rect.block (s := S8388608x4) S262144x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9.size a ≤ S1x9.size a
  hwx0_2 : ∀ i : grid0.Coords, EltTy.bits .f32 = 32 ∨ (Rect.block (s := S1x9) S1x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144x3.size a ≤ S8388608x3.size a
  hwx0_4 : ∀ i : grid0.Coords, EltTy.bits .f32 = 32 ∨ (Rect.block (s := S8388608x3) S262144x3.size (cc0_transform_4 i) (hinb0_4 i)).WholeWords (EltTy.packing .f32)

variable [Facts₀]

abbrev win0_0 : Pipeline.Window sig grid0 :=
  Pipeline.Window.ofSpec (Memref.whole main_arg0) S262144x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S262144x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S1x4 : Shape := ⟨2, ![1, 4]⟩
abbrev S9 : Shape := ⟨1, ![9]⟩
abbrev S3x1 : Shape := ⟨2, ![3, 1]⟩
abbrev S4x1 : Shape := ⟨2, ![4, 1]⟩
abbrev S8388608x1 : Shape := ⟨2, ![8388608, 1]⟩
abbrev S_ : Shape := ⟨0, ![]⟩
abbrev S1 : Shape := ⟨1, ![1]⟩
abbrev S1x3 : Shape := ⟨2, ![1, 3]⟩
abbrev S8388608x3 : Shape := ⟨2, ![8388608, 3]⟩
abbrev S8388608 : Shape := ⟨1, ![8388608]⟩

abbrev nBuf : Space → Nat
  | .hbm => 88
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S1x4, .f32⟩
  | .hbm, ⟨2, _⟩ => ⟨S9, .f32⟩
  | .hbm, ⟨3, _⟩ => ⟨S3x1, .f32⟩
  | .hbm, ⟨4, _⟩ => ⟨S4x1, .f32⟩
  | .hbm, ⟨5, _⟩ => ⟨S8388608x1, .f32⟩
  | .hbm, ⟨6, _⟩ => ⟨S_, .f32⟩
  | .hbm, ⟨7, _⟩ => ⟨S8388608x1, .f32⟩
  | .hbm, ⟨8, _⟩ => ⟨S8388608x1, .f32⟩
  | .hbm, ⟨9, _⟩ => ⟨S1, .f32⟩
  | .hbm, ⟨10, _⟩ => ⟨S_, .f32⟩
  | .hbm, ⟨11, _⟩ => ⟨S8388608x1, .f32⟩
  | .hbm, ⟨12, _⟩ => ⟨S8388608x1, .f32⟩
  | .hbm, ⟨13, _⟩ => ⟨S_, .f32⟩
  | .hbm, ⟨14, _⟩ => ⟨S8388608x1, .f32⟩
  | .hbm, ⟨15, _⟩ => ⟨S8388608x1, .f32⟩
  | .hbm, ⟨16, _⟩ => ⟨S1, .f32⟩
  | .hbm, ⟨17, _⟩ => ⟨S_, .f32⟩
  | .hbm, ⟨18, _⟩ => ⟨S8388608x1, .f32⟩
  | .hbm, ⟨19, _⟩ => ⟨S8388608x1, .f32⟩
  | .hbm, ⟨20, _⟩ => ⟨S_, .f32⟩
  | .hbm, ⟨21, _⟩ => ⟨S8388608x1, .f32⟩
  | .hbm, ⟨22, _⟩ => ⟨S8388608x1, .f32⟩
  | .hbm, ⟨23, _⟩ => ⟨S1, .f32⟩
  | .hbm, ⟨24, _⟩ => ⟨S_, .f32⟩
  | .hbm, ⟨25, _⟩ => ⟨S8388608x1, .f32⟩
  | .hbm, ⟨26, _⟩ => ⟨S8388608x1, .f32⟩
  | .hbm, ⟨27, _⟩ => ⟨S_, .f32⟩
  | .hbm, ⟨28, _⟩ => ⟨S8388608x1, .f32⟩
  | .hbm, ⟨29, _⟩ => ⟨S8388608x1, .f32⟩
  | .hbm, ⟨30, _⟩ => ⟨S1, .f32⟩
  | .hbm, ⟨31, _⟩ => ⟨S_, .f32⟩
  | .hbm, ⟨32, _⟩ => ⟨S8388608x1, .f32⟩
  | .hbm, ⟨33, _⟩ => ⟨S8388608x1, .f32⟩
  | .hbm, ⟨34, _⟩ => ⟨S_, .f32⟩
  | .hbm, ⟨35, _⟩ => ⟨S8388608x1, .f32⟩
  | .hbm, ⟨36, _⟩ => ⟨S8388608x1, .f32⟩
  | .hbm, ⟨37, _⟩ => ⟨S1, .f32⟩
  | .hbm, ⟨38, _⟩ => ⟨S_, .f32⟩
  | .hbm, ⟨39, _⟩ => ⟨S8388608x1, .f32⟩
  | .hbm, ⟨40, _⟩ => ⟨S8388608x1, .f32⟩
  | .hbm, ⟨41, _⟩ => ⟨S_, .f32⟩
  | .hbm, ⟨42, _⟩ => ⟨S8388608x1, .f32⟩
  | .hbm, ⟨43, _⟩ => ⟨S8388608x1, .f32⟩
  | .hbm, ⟨44, _⟩ => ⟨S1, .f32⟩
  | .hbm, ⟨45, _⟩ => ⟨S_, .f32⟩
  | .hbm, ⟨46, _⟩ => ⟨S8388608x1, .f32⟩
  | .hbm, ⟨47, _⟩ => ⟨S8388608x1, .f32⟩
  | .hbm, ⟨48, _⟩ => ⟨S_, .f32⟩
  | .hbm, ⟨49, _⟩ => ⟨S8388608x1, .f32⟩
  | .hbm, ⟨50, _⟩ => ⟨S8388608x1, .f32⟩
  | .hbm, ⟨51, _⟩ => ⟨S1, .f32⟩
  | .hbm, ⟨52, _⟩ => ⟨S_, .f32⟩
  | .hbm, ⟨53, _⟩ => ⟨S8388608x1, .f32⟩
  | .hbm, ⟨54, _⟩ => ⟨S8388608x1, .f32⟩
  | .hbm, ⟨55, _⟩ => ⟨S_, .f32⟩
  | .hbm, ⟨56, _⟩ => ⟨S8388608x1, .f32⟩
  | .hbm, ⟨57, _⟩ => ⟨S8388608x1, .f32⟩
  | .hbm, ⟨58, _⟩ => ⟨S1, .f32⟩
  | .hbm, ⟨59, _⟩ => ⟨S_, .f32⟩
  | .hbm, ⟨60, _⟩ => ⟨S8388608x1, .f32⟩
  | .hbm, ⟨61, _⟩ => ⟨S8388608x1, .f32⟩
  | .hbm, ⟨62, _⟩ => ⟨S_, .f32⟩
  | .hbm, ⟨63, _⟩ => ⟨S8388608x1, .f32⟩
  | .hbm, ⟨64, _⟩ => ⟨S8388608x1, .f32⟩
  | .hbm, ⟨65, _⟩ => ⟨S1, .f32⟩
  | .hbm, ⟨66, _⟩ => ⟨S_, .f32⟩
  | .hbm, ⟨67, _⟩ => ⟨S8388608x1, .f32⟩
  | .hbm, ⟨68, _⟩ => ⟨S8388608x1, .f32⟩
  | .hbm, ⟨69, _⟩ => ⟨S_, .f32⟩
  | .hbm, ⟨70, _⟩ => ⟨S8388608x1, .f32⟩
  | .hbm, ⟨71, _⟩ => ⟨S8388608x1, .f32⟩
  | .hbm, ⟨72, _⟩ => ⟨S1x3, .f32⟩
  | .hbm, ⟨73, _⟩ => ⟨S8388608x3, .f32⟩
  | .hbm, ⟨74, _⟩ => ⟨S_, .f32⟩
  | .hbm, ⟨75, _⟩ => ⟨S8388608, .f32⟩
  | .hbm, ⟨76, _⟩ => ⟨S_, .f32⟩
  | .hbm, ⟨77, _⟩ => ⟨S8388608, .f32⟩
  | .hbm, ⟨78, _⟩ => ⟨S8388608, .f32⟩
  | .hbm, ⟨79, _⟩ => ⟨S8388608x1, .f32⟩
  | .hbm, ⟨80, _⟩ => ⟨S8388608x3, .f32⟩
  | .hbm, ⟨81, _⟩ => ⟨S8388608x3, .f32⟩
  | .hbm, ⟨82, _⟩ => ⟨S8388608x3, .f32⟩
  | .hbm, ⟨83, _⟩ => ⟨S_, .f32⟩
  | .hbm, ⟨84, _⟩ => ⟨S8388608, .f32⟩
  | .hbm, ⟨85, _⟩ => ⟨S8388608x1, .f32⟩
  | .hbm, ⟨86, _⟩ => ⟨S8388608x3, .f32⟩
  | .hbm, ⟨87, _⟩ => ⟨S8388608x3, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call2_cst : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call3_cst : Ref sig .tc := ⟨.hbm, 27, rfl⟩
abbrev main_call3_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call4_cst : Ref sig .tc := ⟨.hbm, 34, rfl⟩
abbrev main_call4_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call5_cst : Ref sig .tc := ⟨.hbm, 41, rfl⟩
abbrev main_call5_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call6_cst : Ref sig .tc := ⟨.hbm, 48, rfl⟩
abbrev main_call6_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call7_cst : Ref sig .tc := ⟨.hbm, 55, rfl⟩
abbrev main_call7_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call8_cst : Ref sig .tc := ⟨.hbm, 62, rfl⟩
abbrev main_call8_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call9_cst : Ref sig .tc := ⟨.hbm, 69, rfl⟩
abbrev main_call9_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst : Ref sig .tc := ⟨.hbm, 74, rfl⟩
abbrev main_v50 : Ref sig .tc := ⟨.hbm, 75, rfl⟩
abbrev main_cst_0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_1 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  transposes_S1x4_S4x1_1_0 : S1x4.Transposes [1, 0] S4x1
  bcast_S_S8388608x1 : S_.BroadcastsInDim S8388608x1 (![] : Fin 0 → Fin S8388608x1.rank)
  slices_S9_S1_0 : S9.Slices ![0] S1
  shapeCasts_S1_S_ : S1.ShapeCasts S_
  slices_S9_S1_1 : S9.Slices ![1] S1
  slices_S9_S1_2 : S9.Slices ![2] S1
  slices_S9_S1_3 : S9.Slices ![3] S1
  slices_S9_S1_4 : S9.Slices ![4] S1
  slices_S9_S1_5 : S9.Slices ![5] S1
  slices_S9_S1_6 : S9.Slices ![6] S1
  slices_S9_S1_7 : S9.Slices ![7] S1
  slices_S9_S1_8 : S9.Slices ![8] S1
  transposes_S3x1_S1x3_1_0 : S3x1.Transposes [1, 0] S1x3
  reducesTo_S8388608x3_S8388608_d1 : S8388608x3.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  dot_S8388608x4_S4x1_S8388608x1_1_0_0_1_n_n_wf : DotDims.WF S8388608x4 S4x1 S8388608x1 [1] [0] [0] [1] [] []
  dot_S8388608x1_S1x3_S8388608x3_1_0_0_1_n_n_wf : DotDims.WF S8388608x1 S1x3 S8388608x3 [1] [0] [0] [1] [] []

variable [Facts₀]

def dot_S8388608x4_S4x1_S8388608x1_1_0_0_1_n_n : DotDims S8388608x4 S4x1 S8388608x1 where
  lhsContracting := [1]
  rhsContracting := [0]
  lhsNonContracting := [0]
  rhsNonContracting := [1]
  lhsBatch := []
  rhsBatch := []
  wf := dot_S8388608x4_S4x1_S8388608x1_1_0_0_1_n_n_wf
def dot_S8388608x1_S1x3_S8388608x3_1_0_0_1_n_n : DotDims S8388608x1 S1x3 S8388608x3 where
  lhsContracting := [1]
  rhsContracting := [0]
  lhsNonContracting := [0]
  rhsNonContracting := [1]
  lhsBatch := []
  rhsBatch := []
  wf := dot_S8388608x1_S1x3_S8388608x3_1_0_0_1_n_n_wf

class Facts : Prop extends Facts₀ where

variable [Facts]
-- ==== Proof.Spec.lean ====
/-
  The function both programs compute, written once over the extended reals.

  A row x(r, ·) of four numbers goes through an input layer of width one, s = sum_c x(r,c) * w_in(c), a relu,
  nine more width-one layers h <- max(h * w_l, 0), an output layer of three logits L_k = h * w_out(k), and a softmax
  over the three: out(r, j) = exp(L_j - M) / sum_k exp(L_k - M), with M the maximum of the three logits folded from
  the value the bit pattern of -infinity denotes.

  `rowOut` is that function of one row and the three weight vectors; `G` is the whole result array
  [8388608, 3] as a function of the four argument arrays, entry (r, j) being `rowOut` of row r at j.
-/
import Idealize.ShloMosaic.PureOps.Ideal
import Idealize.ShloMosaic.Lib.ValueIdx

noncomputable section

namespace Cert.DenseMlp

open Idealize.ShloMosaic Idealize.ShloMosaic.ValueIdx
open scoped BigOperators

/-- The extended real the all-zero pattern denotes (it is 0; nothing below needs that). -/
abbrev zero : EReal := Ideal.ofBits .f32 0x00000000#32

/-- The extended real the pattern of -infinity denotes: where the maximum over the logits starts. -/
abbrev negInf : EReal := Ideal.ofBits .f32 0xFF800000#32

/-- One width-one layer and its relu: max(h * w, 0). -/
def layer (h w : EReal) : EReal := max (h * w) zero

/-- The ten relus of the network at one row: the input layer's sum `s` clipped at zero, then nine layers with the
    weights `w 0 … w 8`. -/
def hiddenChain (s : EReal) (w : Fin 9 → EReal) : EReal :=
  layer (layer (layer (layer (layer (layer (layer (layer (layer (max s zero) (w 0)) (w 1)) (w 2)) (w 3)) (w 4)) (w 5)) (w 6)) (w 7)) (w 8)

/-- The first six relus: the input layer's, then the hidden layers with the weights `w 0 … w 4`. -/
def chain6 (s : EReal) (w : Fin 9 → EReal) : EReal :=
  layer (layer (layer (layer (layer (max s zero) (w 0)) (w 1)) (w 2)) (w 3)) (w 4)

/-- The ten relus are the first six followed by the layers with the weights `w 5 … w 8`. -/
theorem hiddenChain_eq (s : EReal) (w : Fin 9 → EReal) :
    hiddenChain s w = layer (layer (layer (layer (chain6 s w) (w 5)) (w 6)) (w 7)) (w 8) := rfl

/-- The softmax of three logits at position `j`, the maximum folded from `negInf`. -/
def softmax3 (L : Fin 3 → EReal) (j : Fin 3) : EReal :=
  Ideal.div (Ideal.exp (L j - (Finset.univ : Finset (Fin 3)).fold max negInf L))
    (∑ k : Fin 3, Ideal.exp (L k - (Finset.univ : Finset (Fin 3)).fold max negInf L))

/-- One row of the result: the network applied to the row `xr` with input weights `win`, hidden weights `wh` and
    output weights `wo`, read at output `j`. -/
def rowOut (xr win : Fin 4 → EReal) (wh : Fin 9 → EReal) (wo : Fin 3 → EReal) (j : Fin 3) : EReal :=
  softmax3 (fun k => hiddenChain (∑ c : Fin 4, xr c * win c) wh * wo k) j

/-- The whole result array as a function of the argument arrays x [8388608, 4], w_in [1, 4], w_hidden [9] and
    w_out [3, 1]: entry `i` is row `i 0` of x through the network, read at output `i 1`. -/
def G (x : (⟨2, ![8388608, 4]⟩ : Shape).Idx → EReal) (win : (⟨2, ![1, 4]⟩ : Shape).Idx → EReal)
    (wh : (⟨1, ![9]⟩ : Shape).Idx → EReal) (wo : (⟨2, ![3, 1]⟩ : Shape).Idx → EReal) :
    (⟨2, ![8388608, 3]⟩ : Shape).Idx → EReal := fun i =>
  rowOut (fun c => x (ix2 (i 0) c)) (fun c => win (ix2 (0 : Fin 1) c)) (fun l => wh (ix1 l))
    (fun k => wo (ix2 k (0 : Fin 1))) (i 1)

end Cert.DenseMlp

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«148661_j31945966748134_1_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.KernelRow.lean ====
/-
  What the kernel body stores at one entry of its output block, as a function of its four input blocks.

  The body works on a block of 262144 rows: x0 [262144, 4] (rows of x), x1 [1, 4] (w_in), x2 [1, 9] (w_hidden laid as a
  row) and x3 [1, 3] (w_out laid as a row). Per row p it forms the sum over the four columns of x0(p, c) * x1(0, c) by
  an add-reduction over axis 1, keeps it as a column, and runs the relus on that column, each hidden weight read out of
  x2 as a scalar (a one-entry slice, then its entry) and spread over the column. The logits are the column spread over
  three lanes times x3's row spread over the rows, and the softmax is the row softmax of that [262144, 3] matrix.
  So entry (p, q) of the stored value is `rowOut` of row p of x0 with the weights x1(0, ·), x2(0, ·), x3(0, ·), at q.
-/
import proofs.«148661_j31945966748134_1_alg».proof.Proof.Gen.KernelIdeal.Skeleton
import proofs.«148661_j31945966748134_1_alg».proof.Proof.Spec
import proofs.«148661_j31945966748134_1_alg».proof.Proof.LibSoftmaxRow
import Idealize.ShloMosaic.Lib.ValueLayout

noncomputable section

namespace Cert.DenseMlp.KernelRow

open Cert.KernelIdeal Cert.KernelIdeal.Gen Cert.DenseMlp
open Idealize.ShloMosaic Idealize.ShloMosaic.ValueIdx
open scoped BigOperators

/-- A hidden weight as the body reads it: the one-entry slice of the weight row at column `o`, then its entry, is the
    row's entry at column `o`. -/
theorem weight_apply {α : Type} (x2 : (⟨2, ![1, 9]⟩ : Shape).Idx → α) (o : Nat)
    (hc : (⟨2, ![1, 9]⟩ : Shape).ShapeCasts ⟨2, ![1, 9]⟩)
    (hs : (⟨2, ![1, 9]⟩ : Shape).Slices ![0, o] ⟨2, ![1, 1]⟩)
    (hp : ∀ a, (![0, 0] : Fin 2 → Nat) a < (⟨2, ![1, 1]⟩ : Shape).size a) (l : Fin 9) (hl : l.val = o) :
    extractAt ![0, 0] (extractStridedSlice ⟨2, ![1, 1]⟩ ![0, o] (shapeCast ⟨2, ![1, 9]⟩ x2 hc) hs) hp
      = x2 (ix2 (0 : Fin 1) l) := by
  rw [shapeCast_self]
  unfold extractAt
  have e : (fun a => (⟨(![0, 0] : Fin 2 → Nat) a, hp a⟩ : Fin ((⟨2, ![1, 1]⟩ : Shape).size a)))
      = ix2 (0 : Fin 1) (0 : Fin 1) := funext fun a => Fin.ext (by match a with | ⟨0, _⟩ => rfl | ⟨1, _⟩ => rfl)
  rw [e]
  exact slice2_axis1_apply o x2 hs (0 : Fin 1) (0 : Fin 1) l (by rw [hl]; rfl)

/-- The input layer's sum at row `p`: the add-reduction over axis 1 of x0 times the weight row spread over the rows,
    kept as a column, is the sum over the four columns of x0(p, c) * x1(0, c). -/
theorem inSum_apply (x0 : FVec Ideal S262144x4 .f32) (x1 : FVec Ideal S1x4 .f32)
    (hb : S1x4.Broadcasts S262144x4) (hr : S262144x4.Reduces [1] S262144) (hφ : FKind.Formats .f32)
    (hacc : (0x00000000#32 : BitVec 32) = FKind.add.neutral .f32 hφ) (hc : S262144.ShapeCasts S262144x1)
    (p : Fin 262144) (u : Fin 1) :
    shapeCast S262144x1 (multiReduction .add [1] S262144 (mulf x0 (broadcastTo S262144x4 x1 hb)) 0x00000000#32 hr hφ hacc) hc (ix2 p u)
      = ∑ c : Fin 4, x0 (ix2 p c) * x1 (ix2 (0 : Fin 1) c) :=
  (Cert.LibColumn.shapeCast_a_a1_apply _ hc p u).trans
    ((Cert.LibSoftmaxRow.rowSum_apply _ _ hr hφ hacc p).trans
      (Finset.sum_congr rfl fun c _ => congrArg (x0 (ix2 p c) * ·) (broadcastTo_1b_ab_apply x1 hb p c)))

/-- The body's first part at row `p`: the first six relus, times the sixth hidden weight (its relu comes in the second part). -/
theorem firstPart_apply (x0 : Vec Ideal S262144x4 .f32) (x1 : Vec Ideal S1x4 .f32) (x2 : Vec Ideal S1x9 .f32)
    (p : Fin 262144) (u : Fin 1) :
    k0_pay3 x0 x1 x2 (ix2 p u)
      = chain6 (∑ c : Fin 4, x0 (ix2 p c) * x1 (ix2 (0 : Fin 1) c)) (fun l => x2 (ix2 (0 : Fin 1) l)) * x2 (ix2 (0 : Fin 1) 5) := by
  have hS := inSum_apply x0 x1 broadcasts_S1x4_S262144x4 reduces_S262144x4_S262144 (.inl rfl) rfl shapeCasts_S262144_S262144x1 p u
  have h0 := weight_apply x2 0 shapeCasts_S1x9_S1x9 slices_S1x9_o0_0_S1x1 inpos_S1x1_p0_0 0 rfl
  have h1 := weight_apply x2 1 shapeCasts_S1x9_S1x9 slices_S1x9_o0_1_S1x1 inpos_S1x1_p0_0 1 rfl
  have h2 := weight_apply x2 2 shapeCasts_S1x9_S1x9 slices_S1x9_o0_2_S1x1 inpos_S1x1_p0_0 2 rfl
  have h3 := weight_apply x2 3 shapeCasts_S1x9_S1x9 slices_S1x9_o0_3_S1x1 inpos_S1x1_p0_0 3 rfl
  have h4 := weight_apply x2 4 shapeCasts_S1x9_S1x9 slices_S1x9_o0_4_S1x1 inpos_S1x1_p0_0 4 rfl
  have h5 := weight_apply x2 5 shapeCasts_S1x9_S1x9 slices_S1x9_o0_5_S1x1 inpos_S1x1_p0_0 5 rfl
  unfold chain6 layer
  beta_reduce
  rw [← hS, ← h0, ← h1, ← h2, ← h3, ← h4, ← h5]
  rfl

/-- The column of activations after the tenth relu, as the body's second part computes it from the weight row `v9`,
    the sixth product `v43` and the zero column `v44`: the sixth relu, then the layers with weights 6, 7, 8. -/
def lastColumn (v9 : FVec Ideal S1x9 .f32) (v43 v44 : FVec Ideal S262144x1 .f32) : FVec Ideal S262144x1 .f32 :=
  maximumf (mulf (maximumf (mulf (maximumf (mulf (maximumf v43 v44)
    (broadcast S262144x1 (extractAt ![0, 0] (extractStridedSlice S1x1 ![0, 6] v9 slices_S1x9_o0_6_S1x1) inpos_S1x1_p0_0)))
    (broadcast S262144x1 (Scalar.ofBits .f32 0x00000000#32)))
    (broadcast S262144x1 (extractAt ![0, 0] (extractStridedSlice S1x1 ![0, 7] v9 slices_S1x9_o0_7_S1x1) inpos_S1x1_p0_0)))
    (broadcast S262144x1 (Scalar.ofBits .f32 0x00000000#32)))
    (broadcast S262144x1 (extractAt ![0, 0] (extractStridedSlice S1x1 ![0, 8] v9 slices_S1x9_o0_8_S1x1) inpos_S1x1_p0_0)))
    (broadcast S262144x1 (Scalar.ofBits .f32 0x00000000#32))

/-- That column at row `p`: three layers on top of max(v43(p), v44(p)). -/
theorem lastColumn_apply (x2 : Vec Ideal S1x9 .f32) (v43 v44 : FVec Ideal S262144x1 .f32) (p : Fin 262144) (u : Fin 1) :
    lastColumn (k0_pay2 x2) v43 v44 (ix2 p u)
      = layer (layer (layer (max (v43 (ix2 p u)) (v44 (ix2 p u))) (x2 (ix2 (0 : Fin 1) 6))) (x2 (ix2 (0 : Fin 1) 7))) (x2 (ix2 (0 : Fin 1) 8)) := by
  have h6 := weight_apply x2 6 shapeCasts_S1x9_S1x9 slices_S1x9_o0_6_S1x1 inpos_S1x1_p0_0 6 rfl
  have h7 := weight_apply x2 7 shapeCasts_S1x9_S1x9 slices_S1x9_o0_7_S1x1 inpos_S1x1_p0_0 7 rfl
  have h8 := weight_apply x2 8 shapeCasts_S1x9_S1x9 slices_S1x9_o0_8_S1x1 inpos_S1x1_p0_0 8 rfl
  unfold layer
  rw [← h6, ← h7, ← h8]
  rfl

/-- A logit: the activation column spread over three lanes times the output-weight row spread over the rows, at
    (p, k), is the activation at row p times the weight at k. -/
theorem logits_apply (H : FVec Ideal S262144x1 .f32) (x3 : FVec Ideal S1x3 .f32)
    (hc : S1x3.ShapeCasts S1x3) (hb1 : S262144x1.Broadcasts S262144x3) (hb3 : S1x3.Broadcasts S262144x3)
    (p : Fin 262144) (k : Fin 3) :
    mulf (broadcastTo S262144x3 H hb1) (broadcastTo S262144x3 (shapeCast S1x3 x3 hc) hb3) (ix2 p k)
      = H (ix2 p (0 : Fin 1)) * x3 (ix2 (0 : Fin 1) k) := by
  show broadcastTo S262144x3 H hb1 (ix2 p k) * broadcastTo S262144x3 (shapeCast S1x3 x3 hc) hb3 (ix2 p k) = _
  rw [Cert.LibColumn.broadcastTo_a1_ab_apply H hb1 p k, broadcastTo_1b_ab_apply _ hb3 p k, shapeCast_self]

/-- The body's second part at entry (p, q): the softmax over the three logits of row p. -/
theorem secondPart_apply (x2 : Vec Ideal S1x9 .f32) (v43 v44 : FVec Ideal S262144x1 .f32) (x3 : Vec Ideal S1x3 .f32)
    (p : Fin 262144) (q : Fin 3) :
    k0_pay1 (k0_pay2 x2) v43 v44 x3 (ix2 p q)
      = softmax3 (fun k => layer (layer (layer (max (v43 (ix2 p (0 : Fin 1))) (v44 (ix2 p (0 : Fin 1)))) (x2 (ix2 (0 : Fin 1) 6)))
          (x2 (ix2 (0 : Fin 1) 7))) (x2 (ix2 (0 : Fin 1) 8)) * x3 (ix2 (0 : Fin 1) k)) q := by
  refine (Cert.LibSoftmaxRow.softmaxRow_apply
    (mulf (broadcastTo S262144x3 (lastColumn (k0_pay2 x2) v43 v44) broadcasts_S262144x1_S262144x3)
      (broadcastTo S262144x3 (shapeCast S1x3 x3 shapeCasts_S1x3_S1x3) broadcasts_S1x3_S262144x3))
    0xFF800000#32 0x00000000#32 reduces_S262144x3_S262144 (.inl rfl) (.inl rfl) rfl rfl
    shapeCasts_S262144_S262144x1 broadcasts_S262144x1_S262144x3 p q).trans ?_
  refine congrArg (fun L : Fin 3 → EReal => softmax3 L q) (funext fun k => ?_)
  exact (logits_apply _ x3 shapeCasts_S1x3_S1x3 broadcasts_S262144x1_S262144x3 broadcasts_S1x3_S262144x3 p k).trans
    (congrArg (· * x3 (ix2 (0 : Fin 1) k)) (lastColumn_apply x2 v43 v44 p 0))

/-- THE STORED VALUE at entry (p, q) of the output block: the network applied to row p of x0 with the weights the
    other three blocks hold, read at output q. -/
theorem stored_apply (x0 : Vec Ideal S262144x4 .f32) (x1 : Vec Ideal S1x4 .f32) (x2 : Vec Ideal S1x9 .f32)
    (x3 : Vec Ideal S1x3 .f32) (p : Fin 262144) (q : Fin 3) :
    k0_pay1 (k0_pay2 x2) (k0_pay3 x0 x1 x2) (k0_pay4 (F := Ideal)) x3 (ix2 p q)
      = rowOut (fun c => x0 (ix2 p c)) (fun c => x1 (ix2 (0 : Fin 1) c)) (fun l => x2 (ix2 (0 : Fin 1) l))
          (fun k => x3 (ix2 (0 : Fin 1) k)) q := by
  refine (secondPart_apply x2 (k0_pay3 x0 x1 x2) (k0_pay4 (F := Ideal)) x3 p q).trans ?_
  unfold rowOut
  rw [hiddenChain_eq, firstPart_apply x0 x1 x2 p 0]
  rfl

end Cert.DenseMlp.KernelRow

end
-- ==== Proof.KernelArray.lean ====
/-
  From the kernel's blocks to its whole result array.

  The grid has 32 points; point t works on rows [262144 t, 262144 (t + 1)) of x and of the result, and on the whole of
  the three weight rows (their blocks never move). What point t writes back is therefore block t of one whole-array
  function: entry (r, j) is `rowOut` of row r of x with the weights as the region finds them — w_in as launched,
  w_hidden re-laid by the host as a row [1, 9], w_out re-laid as a row [1, 3]. The 32 blocks tile the result (row r lies
  in block r / 262144), so after the run the result array is that function everywhere; and read through the two host
  re-layings (row-major position kept) it is `G` of the four arguments.
-/
import proofs.«148661_j31945966748134_1_alg».proof.Proof.Gen.KernelIdeal.Value
import proofs.«148661_j31945966748134_1_alg».proof.Proof.KernelRow

set_option maxRecDepth 16384

noncomputable section

namespace Cert.DenseMlp.KernelArray

open Cert.KernelIdeal Cert.KernelIdeal.Gen Cert.DenseMlp
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem zeroOffsets : (![0, 0] : Fin 2 → Nat) = fun _ => 0 := funext fun a => by fin_cases a <;> rfl

/-- The result array in the layout the region sees: the hidden and output weights as rows [1, 9] and [1, 3]. -/
def Grows (x : S8388608x4.Idx → EReal) (win : S1x4.Idx → EReal) (wh : S1x9.Idx → EReal) (wo : S1x3.Idx → EReal) :
    S8388608x3.Idx → EReal := fun i =>
  rowOut (fun c => x (ix2 (i 0) c)) (fun c => win (ix2 (0 : Fin 1) c)) (fun l => wh (ix2 (0 : Fin 1) l))
    (fun k => wo (ix2 (0 : Fin 1) k)) (i 1)

/-- The printed index maps, decided over the 32 points: x's block moves with the result's along the rows, every other
    block index is 0, and the result's row-block index at point t is t. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, cc) of x's block at point t is x at row R, when R is the block's row offset plus p. -/
theorem read_x (c : Dev nD) (t : Fin cfg0.N) (p : Fin 262144) (cc : Fin 4) (R : Fin 8388608)
    (hR : R.val = win0_0.index t (0 : Fin 2) * 262144 + 1 * p.val) (h1 : win0_0.index t (1 : Fin 2) = 0) :
    iblk m c 0 t (ix2 p cc) = V m c main_arg0 (ix2 R cc) := by
  show V m c main_arg0 (((cfg0.win 0).blk t).view.emb (ix2 p cc)) = V m c main_arg0 (ix2 R cc)
  refine congrArg (V m c main_arg0) (funext fun a => Fin.ext ?_)
  match a with
  | ⟨0, _⟩ => show win0_0.index t (0 : Fin 2) * 262144 + 1 * p.val = R.val; rw [hR]
  | ⟨1, _⟩ => show win0_0.index t (1 : Fin 2) * 4 + 1 * cc.val = cc.val; rw [h1]; omega

/-- Entry (0, cc) of the input-weight block at any point is w_in at (0, cc). -/
theorem read_win (c : Dev nD) (t : Fin cfg0.N) (cc : Fin 4)
    (h0 : win0_1.index t (0 : Fin 2) = 0) (h1 : win0_1.index t (1 : Fin 2) = 0) :
    iblk m c 1 t (ix2 (0 : Fin 1) cc) = V m c main_arg1 (ix2 (0 : Fin 1) cc) := by
  show V m c main_arg1 (((cfg0.win 1).blk t).view.emb (ix2 (0 : Fin 1) cc)) = V m c main_arg1 (ix2 (0 : Fin 1) cc)
  refine congrArg (V m c main_arg1) (funext fun a => Fin.ext ?_)
  match a with
  | ⟨0, _⟩ => show win0_1.index t (0 : Fin 2) * 1 + 1 * 0 = 0; rw [h0]
  | ⟨1, _⟩ => show win0_1.index t (1 : Fin 2) * 4 + 1 * cc.val = cc.val; rw [h1]; omega

/-- Entry (0, l) of the hidden-weight block at any point is the hidden-weight row at (0, l). -/
theorem read_wh (c : Dev nD) (t : Fin cfg0.N) (l : Fin 9)
    (h0 : win0_2.index t (0 : Fin 2) = 0) (h1 : win0_2.index t (1 : Fin 2) = 0) :
    iblk m c 2 t (ix2 (0 : Fin 1) l) = V m c main_v0 (ix2 (0 : Fin 1) l) := by
  show V m c main_v0 (((cfg0.win 2).blk t).view.emb (ix2 (0 : Fin 1) l)) = V m c main_v0 (ix2 (0 : Fin 1) l)
  refine congrArg (V m c main_v0) (funext fun a => Fin.ext ?_)
  match a with
  | ⟨0, _⟩ => show win0_2.index t (0 : Fin 2) * 1 + 1 * 0 = 0; rw [h0]
  | ⟨1, _⟩ => show win0_2.index t (1 : Fin 2) * 9 + 1 * l.val = l.val; rw [h1]; omega

/-- Entry (0, k) of the output-weight block at any point is the output-weight row at (0, k). -/
theorem read_wo (c : Dev nD) (t : Fin cfg0.N) (k : Fin 3)
    (h0 : win0_3.index t (0 : Fin 2) = 0) (h1 : win0_3.index t (1 : Fin 2) = 0) :
    iblk m c 3 t (ix2 (0 : Fin 1) k) = V m c main_v1 (ix2 (0 : Fin 1) k) := by
  show V m c main_v1 (((cfg0.win 3).blk t).view.emb (ix2 (0 : Fin 1) k)) = V m c main_v1 (ix2 (0 : Fin 1) k)
  refine congrArg (V m c main_v1) (funext fun a => Fin.ext ?_)
  match a with
  | ⟨0, _⟩ => show win0_3.index t (0 : Fin 2) * 1 + 1 * 0 = 0; rw [h0]
  | ⟨1, _⟩ => show win0_3.index t (1 : Fin 2) * 3 + 1 * k.val = k.val; rw [h1]; omega

/-- WHAT POINT t WRITES BACK is block t of `Grows` of the arrays as the region finds them. -/
theorem flushed_eq (c : Dev nD) (t : Fin cfg0.N) :
    (dats m 0 c).flushed 4 t
      = ((cfg0.win 4).blk t).view.read (Elt Ideal) (Grows (V m c main_arg0) (V m c main_arg1) (V m c main_v0) (V m c main_v1)) := by
  rw [Cert.KernelIdeal.Value.flushed4]
  unfold out0_4
  rw [View.canon_unit_zero zeroOffsets]
  simp only [View.ld_unit_zero (S := S262144x4) zeroOffsets, View.ld_unit_zero (S := S1x4) zeroOffsets,
    View.ld_unit_zero (S := S1x9) zeroOffsets, View.ld_unit_zero (S := S1x3) zeroOffsets]
  obtain ⟨e00, e01, e10, e11, e20, e21, e30, e31, e40, e41⟩ := idx_facts t
  funext j
  obtain ⟨p, q, rfl⟩ : ∃ (p : Fin 262144) (q : Fin 3), j = ix2 p q := ⟨j 0, j 1, eq_ix2 j⟩
  show k0_pay1 (k0_pay2 (iblk m c 2 t)) (k0_pay3 (iblk m c 0 t) (iblk m c 1 t) (iblk m c 2 t)) (k0_pay4 (F := Ideal)) (iblk m c 3 t) (ix2 p q)
      = Grows (V m c main_arg0) (V m c main_arg1) (V m c main_v0) (V m c main_v1) (((cfg0.win 4).blk t).view.emb (ix2 p q))
  refine (KernelRow.stored_apply (iblk m c 0 t) (iblk m c 1 t) (iblk m c 2 t) (iblk m c 3 t) p q).trans ?_
  have hi0 : ((((cfg0.win 4).blk t).view.emb (ix2 p q)) 0).val = win0_4.index t (0 : Fin 2) * 262144 + 1 * p.val := rfl
  have hi1 : ((((cfg0.win 4).blk t).view.emb (ix2 p q)) 1).val = win0_4.index t (1 : Fin 2) * 3 + 1 * q.val := rfl
  generalize ((cfg0.win 4).blk t).view.emb (ix2 p q) = i at hi0 hi1
  unfold Grows
  have hA : (fun cc : Fin 4 => iblk m c 0 t (ix2 p cc)) = fun cc => V m c main_arg0 (ix2 (i 0) cc) :=
    funext fun cc => read_x m c t p cc (i 0) (by rw [hi0, e00]) e01
  have hB : (fun cc : Fin 4 => iblk m c 1 t (ix2 (0 : Fin 1) cc)) = fun cc => V m c main_arg1 (ix2 (0 : Fin 1) cc) :=
    funext fun cc => read_win m c t cc e10 e11
  have hC : (fun l : Fin 9 => iblk m c 2 t (ix2 (0 : Fin 1) l)) = fun l => V m c main_v0 (ix2 (0 : Fin 1) l) :=
    funext fun l => read_wh m c t l e20 e21
  have hD : (fun k : Fin 3 => iblk m c 3 t (ix2 (0 : Fin 1) k)) = fun k => V m c main_v1 (ix2 (0 : Fin 1) k) :=
    funext fun k => read_wo m c t k e30 e31
  have hq : q = i 1 := Fin.ext (by rw [hi1, e41]; omega)
  rw [hA, hB, hC, hD, hq]

/-- An index of the result is in point t's block iff each coordinate is in the block's range on its axis. -/
theorem mem_blk (t : Fin cfg0.N) (i : S8388608x3.Idx) :
    i ∈ ((cfg0.win 4).blk t).view.set ↔ ∀ a : Fin 2, win0_4.index t a * S262144x3.size a ≤ (i a).val
      ∧ (i a).val < win0_4.index t a * S262144x3.size a + S262144x3.size a := by
  show i ∈ ((View.whole main_v2).slice (win0_4.rect t)).set ↔ _
  rw [View.set_slice_whole, Rect.mem_set_unit]
  exact Iff.rfl

/-- THE BLOCKS TILE THE RESULT: row r lies in the block of point r / 262144. -/
theorem cover (i : S8388608x3.Idx) :
    ∃ t : Fin cfg0.N, (cfg0.win 4).flush t = true ∧ i ∈ ((cfg0.win 4).blk t).view.set := by
  have hi0 : (i 0).val < 8388608 := (i 0).isLt
  have hi1 : (i 1).val < 3 := (i 1).isLt
  have hN : cfg0.N = 32 := N_0
  have ht : (i 0).val / 262144 < cfg0.N := by rw [hN]; omega
  obtain ⟨-, -, -, -, -, -, -, -, e40, e41⟩ := idx_facts ⟨(i 0).val / 262144, ht⟩
  refine ⟨⟨(i 0).val / 262144, ht⟩, flush0_4 _, ?_⟩
  rw [mem_blk]
  intro a
  match a with
  | ⟨0, _⟩ =>
    show win0_4.index ⟨(i 0).val / 262144, ht⟩ (0 : Fin 2) * 262144 ≤ (i 0).val
      ∧ (i 0).val < win0_4.index ⟨(i 0).val / 262144, ht⟩ (0 : Fin 2) * 262144 + 262144
    rw [e40]
    show (i 0).val / 262144 * 262144 ≤ (i 0).val ∧ (i 0).val < (i 0).val / 262144 * 262144 + 262144
    omega
  | ⟨1, _⟩ =>
    show win0_4.index ⟨(i 0).val / 262144, ht⟩ (1 : Fin 2) * 3 ≤ (i 1).val
      ∧ (i 1).val < win0_4.index ⟨(i 0).val / 262144, ht⟩ (1 : Fin 2) * 3 + 3
    rw [e41]
    omega

/-- THE RESULT ARRAY after the run is `Grows` of the arrays as the region finds them. -/
theorem final (c : Dev nD) :
    (dats m 0 c).arrAt 4 cfg0.N = Grows (V m c main_arg0) (V m c main_arg1) (V m c main_v0) (V m c main_v1) :=
  (dats m 0 c).arrAt_eq_of_cover 4 _ (fun t _ => flushed_eq m c t) cover

/-- The hidden weights as the region finds them: w_hidden re-laid by the host as a row [1, 9]. -/
theorem V_hidden (c : Dev nD) :
    (V m c main_v0 : S1x9.Idx → EReal) = shapeCast S1x9 (m ((c : Thread nD τ).loc main_arg2)) shapeCasts_S9_S1x9 := by
  dsimp only [Gen.V, Gen.hostOps0]; after_results; rfl

/-- The output weights as the region finds them: w_out [3, 1] re-laid by the host as a row [1, 3]. -/
theorem V_out (c : Dev nD) :
    (V m c main_v1 : S1x3.Idx → EReal) = shapeCast S1x3 (m ((c : Thread nD τ).loc main_arg3)) shapeCasts_S3x1_S1x3 := by
  dsimp only [Gen.V, Gen.hostOps0]; after_results; rfl

/-- Read through the two re-layings (each keeps the row-major position), `Grows` of what the region finds is `G` of
    the four arguments as launched. -/
theorem Grows_eq_G (c : Dev nD) :
    Grows (V m c main_arg0) (V m c main_arg1) (V m c main_v0) (V m c main_v1)
      = G (m ((c : Thread nD τ).loc main_arg0)) (m ((c : Thread nD τ).loc main_arg1))
          (m ((c : Thread nD τ).loc main_arg2)) (m ((c : Thread nD τ).loc main_arg3)) := by
  rw [V_main_arg0, V_main_arg1, V_hidden, V_out]
  funext i
  unfold Grows G
  have hC : (fun l : Fin 9 => shapeCast S1x9 (m ((c : Thread nD τ).loc main_arg2)) shapeCasts_S9_S1x9 (ix2 (0 : Fin 1) l))
      = fun l => m ((c : Thread nD τ).loc main_arg2) (ix1 l) :=
    funext fun l => shapeCast_a_1a_apply _ shapeCasts_S9_S1x9 (0 : Fin 1) l
  have hD : (fun k : Fin 3 => shapeCast S1x3 (m ((c : Thread nD τ).loc main_arg3)) shapeCasts_S3x1_S1x3 (ix2 (0 : Fin 1) k))
      = fun k => m ((c : Thread nD τ).loc main_arg3) (ix2 k (0 : Fin 1)) :=
    funext fun k => shapeCast_apply _ shapeCasts_S3x1_S1x3 (ix2 (0 : Fin 1) k) (ix2 k (0 : Fin 1)) (by
      rw [Shape.rowMajor_val_two, Shape.rowMajor_val_two]
      show k.val * 1 + 0 = 0 * 3 + k.val
      omega)
  rw [hC, hD]

/-- THE KERNEL'S RUN, read: every weakly fair execution terminates with the result array at `G` of the arguments
    as launched, and the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (Grows_eq_G m c)), (h c).2⟩)
    (Cert.KernelIdeal.Value.run_blocks m ρ)

end Cert.DenseMlp.KernelArray

end
-- ==== Proof.LibHostRowMax.lean ====
/-
  The host's maximum-reduction over axis 1 of a matrix [a, b] of extended reals, read at a row.

  A reduction by a commutative, associative operation at result index r is the fold of that operation, from the initial
  value, over the coordinates of the reduced axis; inserting coordinate k on axis 1 over row r gives the matrix index
  (r, k). So the row's maximum is the fold of max over the row's b entries. A second fact used beside it: taking the
  maximum of such a fold with the value it was folded from changes nothing, since the fold is at least that value.
-/
import Idealize.ShloMosaic.PureOps.Reduce
import Idealize.ShloMosaic.PureOps.Ideal.Laws
import proofs.«148661_j31945966748134_1_alg».proof.Proof.LibSoftmaxRow

noncomputable section

namespace Cert.LibHostRowMax

open Idealize.ShloMosaic Idealize.ShloMosaic.ValueIdx

/-- The host's max-reduce over axis 1 at row `r`: the fold of max from the initial value over the row's entries. -/
theorem hostRowMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single _ x init h' h hu (ix1 r)]
  exact congrArg (fun f => (Finset.univ : Finset (Fin b)).fold max (init (Shape.Idx.first hu)) f)
    (funext fun k => congrArg x (Cert.LibSoftmaxRow.lift_row h r k))

/-- The maximum of a fold of max with the value it starts from is the fold. -/
theorem max_fold_start {ι : Type} (s : Finset ι) (b : EReal) (f : ι → EReal) :
    max b (s.fold max b f) = s.fold max b f :=
  max_eq_right ((Finset.le_fold_max b).mpr (Or.inl le_rfl))

end Cert.LibHostRowMax

end
-- ==== Proof.RefRow.lean ====
/-
  The reference's result, read stage by stage, is the function `G` of the argument arrays.

  The reference forms the input layer's sum as a matrix product of x with the transposed weight row (a sum over the four
  columns), applies relu ten times with each hidden weight taken out of w_hidden as a one-entry slice re-laid as a
  scalar and spread over the column, forms the logits as a matrix product of the activation column with the transposed
  output weights (a sum over ONE term, so a plain product), and takes jax's softmax: the row maximum by a max-reduce
  from the value of -infinity, once more maxed with that same value (which changes nothing), subtracted; exponentials;
  their sum by an add-reduce from zero (zero plus the sum is the sum); the quotient.
-/
import proofs.«148661_j31945966748134_1_alg».proof.Proof.Gen.ReferenceIdeal.Read
import proofs.«148661_j31945966748134_1_alg».proof.Proof.Spec
import proofs.«148661_j31945966748134_1_alg».proof.Proof.LibHostRowMax

noncomputable section

namespace Cert.DenseMlp.RefRow

open Cert.ReferenceIdeal Cert.ReferenceIdeal.Gen Cert.ReferenceIdeal.Read Cert.DenseMlp
open Idealize.ShloMosaic Idealize.ShloMosaic.ValueIdx
open scoped BigOperators

/-- A one-entry vector re-laid as a scalar reads its one entry. -/
theorem scalar_of_one {α : Type} (y : (⟨1, ![1]⟩ : Shape).Idx → α) (h : (⟨1, ![1]⟩ : Shape).ShapeCasts ⟨0, ![]⟩)
    (j : (⟨0, ![]⟩ : Shape).Idx) : shapeCast ⟨0, ![]⟩ y h j = y (ix1 (0 : Fin 1)) :=
  shapeCast_apply y h j (ix1 (0 : Fin 1)) (by
    have hj : ((⟨0, ![]⟩ : Shape).rowMajor j).val < 1 := ((⟨0, ![]⟩ : Shape).rowMajor j).isLt
    rw [Shape.rowMajor_val_one]
    show (0 : ℕ) = _
    omega)

/-- Hidden weight 0 as the reference spreads it over the column: entry 0 of w_hidden. -/
theorem weight0 (x2 : (⟨S9, .f32⟩ : BufTy).Contents (Elt Ideal)) (i : S8388608x1.Idx) :
    val_main_v5 (F := Ideal) x2 i = x2 (ix1 (0 : Fin 9)) := by
  rw [val_main_v5_apply]
  unfold val_main_v4
  rw [scalar_of_one, val_main_v3_apply]
  exact congrArg x2 (funext fun a => Fin.ext (by match a with | ⟨0, _⟩ => rfl))

/-- Hidden weight 1 as the reference spreads it over the column: entry 1 of w_hidden. -/
theorem weight1 (x2 : (⟨S9, .f32⟩ : BufTy).Contents (Elt Ideal)) (i : S8388608x1.Idx) :
    val_main_v10 (F := Ideal) x2 i = x2 (ix1 (1 : Fin 9)) := by
  rw [val_main_v10_apply]
  unfold val_main_v9
  rw [scalar_of_one, val_main_v8_apply]
  exact congrArg x2 (funext fun a => Fin.ext (by match a with | ⟨0, _⟩ => rfl))

/-- Hidden weight 2 as the reference spreads it over the column: entry 2 of w_hidden. -/
theorem weight2 (x2 : (⟨S9, .f32⟩ : BufTy).Contents (Elt Ideal)) (i : S8388608x1.Idx) :
    val_main_v15 (F := Ideal) x2 i = x2 (ix1 (2 : Fin 9)) := by
  rw [val_main_v15_apply]
  unfold val_main_v14
  rw [scalar_of_one, val_main_v13_apply]
  exact congrArg x2 (funext fun a => Fin.ext (by match a with | ⟨0, _⟩ => rfl))

/-- Hidden weight 3 as the reference spreads it over the column: entry 3 of w_hidden. -/
theorem weight3 (x2 : (⟨S9, .f32⟩ : BufTy).Contents (Elt Ideal)) (i : S8388608x1.Idx) :
    val_main_v20 (F := Ideal) x2 i = x2 (ix1 (3 : Fin 9)) := by
  rw [val_main_v20_apply]
  unfold val_main_v19
  rw [scalar_of_one, val_main_v18_apply]
  exact congrArg x2 (funext fun a => Fin.ext (by match a with | ⟨0, _⟩ => rfl))

/-- Hidden weight 4 as the reference spreads it over the column: entry 4 of w_hidden. -/
theorem weight4 (x2 : (⟨S9, .f32⟩ : BufTy).Contents (Elt Ideal)) (i : S8388608x1.Idx) :
    val_main_v25 (F := Ideal) x2 i = x2 (ix1 (4 : Fin 9)) := by
  rw [val_main_v25_apply]
  unfold val_main_v24
  rw [scalar_of_one, val_main_v23_apply]
  exact congrArg x2 (funext fun a => Fin.ext (by match a with | ⟨0, _⟩ => rfl))

/-- Hidden weight 5 as the reference spreads it over the column: entry 5 of w_hidden. -/
theorem weight5 (x2 : (⟨S9, .f32⟩ : BufTy).Contents (Elt Ideal)) (i : S8388608x1.Idx) :
    val_main_v30 (F := Ideal) x2 i = x2 (ix1 (5 : Fin 9)) := by
  rw [val_main_v30_apply]
  unfold val_main_v29
  rw [scalar_of_one, val_main_v28_apply]
  exact congrArg x2 (funext fun a => Fin.ext (by match a with | ⟨0, _⟩ => rfl))

/-- Hidden weight 6 as the reference spreads it over the column: entry 6 of w_hidden. -/
theorem weight6 (x2 : (⟨S9, .f32⟩ : BufTy).Contents (Elt Ideal)) (i : S8388608x1.Idx) :
    val_main_v35 (F := Ideal) x2 i = x2 (ix1 (6 : Fin 9)) := by
  rw [val_main_v35_apply]
  unfold val_main_v34
  rw [scalar_of_one, val_main_v33_apply]
  exact congrArg x2 (funext fun a => Fin.ext (by match a with | ⟨0, _⟩ => rfl))

/-- Hidden weight 7 as the reference spreads it over the column: entry 7 of w_hidden. -/
theorem weight7 (x2 : (⟨S9, .f32⟩ : BufTy).Contents (Elt Ideal)) (i : S8388608x1.Idx) :
    val_main_v40 (F := Ideal) x2 i = x2 (ix1 (7 : Fin 9)) := by
  rw [val_main_v40_apply]
  unfold val_main_v39
  rw [scalar_of_one, val_main_v38_apply]
  exact congrArg x2 (funext fun a => Fin.ext (by match a with | ⟨0, _⟩ => rfl))

/-- Hidden weight 8 as the reference spreads it over the column: entry 8 of w_hidden. -/
theorem weight8 (x2 : (⟨S9, .f32⟩ : BufTy).Contents (Elt Ideal)) (i : S8388608x1.Idx) :
    val_main_v45 (F := Ideal) x2 i = x2 (ix1 (8 : Fin 9)) := by
  rw [val_main_v45_apply]
  unfold val_main_v44
  rw [scalar_of_one, val_main_v43_apply]
  exact congrArg x2 (funext fun a => Fin.ext (by match a with | ⟨0, _⟩ => rfl))

/-! The ten zero columns of the ten relus. -/
theorem zcol0 (i : S8388608x1.Idx) : val_main_call0_v0 (F := Ideal) i = zero := by
  rw [val_main_call0_v0_apply, val_main_call0_cst_apply]; rfl
theorem zcol1 (i : S8388608x1.Idx) : val_main_call1_v0 (F := Ideal) i = zero := by
  rw [val_main_call1_v0_apply, val_main_call1_cst_apply]; rfl
theorem zcol2 (i : S8388608x1.Idx) : val_main_call2_v0 (F := Ideal) i = zero := by
  rw [val_main_call2_v0_apply, val_main_call2_cst_apply]; rfl
theorem zcol3 (i : S8388608x1.Idx) : val_main_call3_v0 (F := Ideal) i = zero := by
  rw [val_main_call3_v0_apply, val_main_call3_cst_apply]; rfl
theorem zcol4 (i : S8388608x1.Idx) : val_main_call4_v0 (F := Ideal) i = zero := by
  rw [val_main_call4_v0_apply, val_main_call4_cst_apply]; rfl
theorem zcol5 (i : S8388608x1.Idx) : val_main_call5_v0 (F := Ideal) i = zero := by
  rw [val_main_call5_v0_apply, val_main_call5_cst_apply]; rfl
theorem zcol6 (i : S8388608x1.Idx) : val_main_call6_v0 (F := Ideal) i = zero := by
  rw [val_main_call6_v0_apply, val_main_call6_cst_apply]; rfl
theorem zcol7 (i : S8388608x1.Idx) : val_main_call7_v0 (F := Ideal) i = zero := by
  rw [val_main_call7_v0_apply, val_main_call7_cst_apply]; rfl
theorem zcol8 (i : S8388608x1.Idx) : val_main_call8_v0 (F := Ideal) i = zero := by
  rw [val_main_call8_v0_apply, val_main_call8_cst_apply]; rfl
theorem zcol9 (i : S8388608x1.Idx) : val_main_call9_v0 (F := Ideal) i = zero := by
  rw [val_main_call9_v0_apply, val_main_call9_cst_apply]; rfl

/-- The input layer's sum at row `r`: the matrix product with the transposed weight row is the sum over the four
    columns of x(r, c) * w_in(0, c). -/
theorem inSum_ref (x0 : (⟨S8388608x4, .f32⟩ : BufTy).Contents (Elt Ideal)) (x1 : (⟨S1x4, .f32⟩ : BufTy).Contents (Elt Ideal)) (r : Fin 8388608) (u : Fin 1) :
    val_main_v1 (F := Ideal) x0 x1 (ix2 r u) = ∑ c : Fin 4, x0 (ix2 r c) * x1 (ix2 (0 : Fin 1) c) := by
  rw [val_main_v1_apply]
  refine Finset.sum_congr rfl fun c _ => ?_
  rw [val_main_v0_apply]
  have el : lidx_main_v1 (ix2 r u) c = ix2 r c :=
    funext fun a => Fin.ext (by match a with | ⟨0, _⟩ => rfl | ⟨1, _⟩ => rfl)
  have er : idx_main_v0 (ridx_main_v1 (ix2 r u) c) = ix2 (0 : Fin 1) c :=
    funext fun a => Fin.ext (by
      match a with
      | ⟨0, _⟩ => show u.val = 0; omega
      | ⟨1, _⟩ => rfl)
  rw [el, er]

/-- The activation after the ten relus at row `r`. -/
theorem hidden_ref (x0 : (⟨S8388608x4, .f32⟩ : BufTy).Contents (Elt Ideal)) (x1 : (⟨S1x4, .f32⟩ : BufTy).Contents (Elt Ideal)) (x2 : (⟨S9, .f32⟩ : BufTy).Contents (Elt Ideal)) (r : Fin 8388608) (u : Fin 1) :
    val_main_v47 (F := Ideal) x0 x1 x2 (ix2 r u)
      = hiddenChain (∑ c : Fin 4, x0 (ix2 r c) * x1 (ix2 (0 : Fin 1) c)) (fun l => x2 (ix1 l)) := by
  simp only [val_main_v47_apply, val_main_v46_apply, val_main_v42_apply, val_main_v41_apply, val_main_v37_apply, val_main_v36_apply, val_main_v32_apply, val_main_v31_apply, val_main_v27_apply, val_main_v26_apply, val_main_v22_apply, val_main_v21_apply, val_main_v17_apply, val_main_v16_apply, val_main_v12_apply, val_main_v11_apply, val_main_v7_apply, val_main_v6_apply, val_main_v2_apply,
    weight0, weight1, weight2, weight3, weight4, weight5, weight6, weight7, weight8,
    zcol0, zcol1, zcol2, zcol3, zcol4, zcol5, zcol6, zcol7, zcol8, zcol9, inSum_ref]
  rfl

/-- A logit: the matrix product of the activation column with the transposed output weights has one term. -/
theorem logit_ref (x0 : (⟨S8388608x4, .f32⟩ : BufTy).Contents (Elt Ideal)) (x1 : (⟨S1x4, .f32⟩ : BufTy).Contents (Elt Ideal)) (x2 : (⟨S9, .f32⟩ : BufTy).Contents (Elt Ideal)) (x3 : (⟨S3x1, .f32⟩ : BufTy).Contents (Elt Ideal)) (r : Fin 8388608) (k : Fin 3) :
    val_main_v49 (F := Ideal) x0 x1 x2 x3 (ix2 r k)
      = hiddenChain (∑ c : Fin 4, x0 (ix2 r c) * x1 (ix2 (0 : Fin 1) c)) (fun l => x2 (ix1 l)) * x3 (ix2 k (0 : Fin 1)) := by
  rw [val_main_v49_apply, Fin.sum_univ_one, val_main_v48_apply]
  have el : lidx_main_v49 (ix2 r k) 0 = ix2 r (0 : Fin 1) :=
    funext fun a => Fin.ext (by match a with | ⟨0, _⟩ => rfl | ⟨1, _⟩ => rfl)
  have er : idx_main_v48 (ridx_main_v49 (ix2 r k) 0) = ix2 k (0 : Fin 1) :=
    funext fun a => Fin.ext (by match a with | ⟨0, _⟩ => rfl | ⟨1, _⟩ => rfl)
  rw [el, er, hidden_ref]

/-- The row maximum as jax's softmax takes it (the max-reduce from -infinity, maxed once more with -infinity) is the fold of
    max over the row's three logits from that value. -/
theorem rowMax_ref (x0 : (⟨S8388608x4, .f32⟩ : BufTy).Contents (Elt Ideal)) (x1 : (⟨S1x4, .f32⟩ : BufTy).Contents (Elt Ideal)) (x2 : (⟨S9, .f32⟩ : BufTy).Contents (Elt Ideal)) (x3 : (⟨S3x1, .f32⟩ : BufTy).Contents (Elt Ideal)) (r : Fin 8388608) :
    val_main_v52 (F := Ideal) x0 x1 x2 x3 (ix1 r)
      = (Finset.univ : Finset (Fin 3)).fold max negInf (fun k => val_main_v49 (F := Ideal) x0 x1 x2 x3 (ix2 r k)) := by
  rw [val_main_v52_apply, val_main_v51_apply, val_main_cst_0_apply]
  unfold val_main_v50
  generalize val_main_v49 (F := Ideal) x0 x1 x2 x3 = y
  have hred : S8388608x3.Reduces [1] S8388608 := by decide
  rw [Cert.LibHostRowMax.hostRowMax_apply y _ reducesTo_S8388608x3_S8388608_d1 hred h_S_ r, val_main_cst_apply]
  exact Cert.LibHostRowMax.max_fold_start _ _ _

/-- THE REFERENCE'S RESULT, its last stage, is `G` of the argument arrays, entry by entry. -/
theorem ref_eq (x0 : (⟨S8388608x4, .f32⟩ : BufTy).Contents (Elt Ideal)) (x1 : (⟨S1x4, .f32⟩ : BufTy).Contents (Elt Ideal)) (x2 : (⟨S9, .f32⟩ : BufTy).Contents (Elt Ideal)) (x3 : (⟨S3x1, .f32⟩ : BufTy).Contents (Elt Ideal)) :
    val_main_v60 (F := Ideal) x0 x1 x2 x3 = G x0 x1 x2 x3 := by
  funext i
  obtain ⟨r, j, rfl⟩ : ∃ (r : Fin 8388608) (j : Fin 3), i = ix2 r j := ⟨i 0, i 1, eq_ix2 i⟩
  -- the row maximum, spread back over the row's three entries
  have hM : ∀ k : Fin 3, val_main_v54 (F := Ideal) x0 x1 x2 x3 (ix2 r k)
      = (Finset.univ : Finset (Fin 3)).fold max negInf (fun k' => val_main_v49 (F := Ideal) x0 x1 x2 x3 (ix2 r k')) := fun k => by
    rw [val_main_v54_apply, val_main_v53_apply]
    have e : idx_main_v53 (idx_main_v54 (ix2 r k)) = ix1 r :=
      funext fun a => Fin.ext (by match a with | ⟨0, _⟩ => rfl)
    rw [e, rowMax_ref]
  -- the exponentials
  have hE : ∀ k : Fin 3, val_main_v56 (F := Ideal) x0 x1 x2 x3 (ix2 r k)
      = Ideal.exp (val_main_v49 (F := Ideal) x0 x1 x2 x3 (ix2 r k)
          - (Finset.univ : Finset (Fin 3)).fold max negInf (fun k' => val_main_v49 (F := Ideal) x0 x1 x2 x3 (ix2 r k'))) := fun k => by
    rw [val_main_v56_apply, val_main_v55_apply, hM k]; rfl
  -- their sum, spread back
  have hS : val_main_v59 (F := Ideal) x0 x1 x2 x3 (ix2 r j)
      = ∑ k : Fin 3, val_main_v56 (F := Ideal) x0 x1 x2 x3 (ix2 r k) := by
    rw [val_main_v59_apply, val_main_v58_apply]
    have e : idx_main_v58 (idx_main_v59 (ix2 r j)) = ix1 r :=
      funext fun a => Fin.ext (by match a with | ⟨0, _⟩ => rfl)
    rw [e, val_main_v57_apply, val_main_cst_1_apply]
    show Ideal.ofBits .f32 0x00000000#32 + _ = _
    rw [Ideal.ofBits_zero_f32, zero_add]
    refine Finset.sum_congr rfl fun k _ => congrArg (val_main_v56 (F := Ideal) x0 x1 x2 x3) ?_
    exact funext fun a => Fin.ext (by match a with | ⟨0, _⟩ => rfl | ⟨1, _⟩ => rfl)
  rw [val_main_v60_apply, hS, hE j]
  simp only [hE, logit_ref]
  rfl

end Cert.DenseMlp.RefRow

end
-- ==== Proof.lean ====
/-
  A ten-layer width-one network followed by a three-way softmax, as a kernel over blocks of 262144 rows and as a jnp
  reference, compute the same function on the extended reals.

  For a row x(r, ·) of four numbers both form s = sum_c x(r,c) * w_in(c), clip it at zero, apply nine times
  h <- max(h * w_l, 0) with the nine hidden weights, form three logits L_k = h * w_out(k), and return
  exp(L_j - M) / sum_k exp(L_k - M) with M the largest logit. They differ only in how they spell this. The kernel sums
  x * w_in over the columns by an add-reduction that starts from a zero accumulator; the reference takes a matrix
  product, which is the bare sum. The kernel multiplies the activation column by the output-weight row; the reference
  takes a matrix product over a contraction of length one, a sum of one term. The reference's softmax takes the maximum
  of the row maximum with the value it was folded from, which changes nothing. Sums and maxima on the extended reals
  commute and associate, and zero plus a sum is the sum, at infinite values too: no step needs the inputs finite, and
  the precondition is never opened.

  The kernel's blocks: 32 grid points, point t holding rows [262144 t, 262144 (t+1)); each block written back is a
  block of one whole-array function (KernelArray), whose entry is the network applied to the row (KernelRow). The
  reference's stages read one at a time give the same function (RefRow). Both are `Cert.DenseMlp.G` (Spec) of
  the four argument arrays.

  The three frames are the generated frame runs (the reference's is its run with the result dropped); the idealized
  kernel is the kernel's own text read at the extended reals, so there is nothing to preserve.
-/
import proofs.«148661_j31945966748134_1_alg».proof.Defs
import proofs.«148661_j31945966748134_1_alg».proof.Proof.Gen.Kernel
import proofs.«148661_j31945966748134_1_alg».proof.Proof.Gen.Kernel.Frame
import proofs.«148661_j31945966748134_1_alg».proof.Proof.Gen.KernelIdeal
import proofs.«148661_j31945966748134_1_alg».proof.Proof.Gen.KernelIdeal.Frame
import proofs.«148661_j31945966748134_1_alg».proof.Proof.Gen.KernelIdeal.Value
import proofs.«148661_j31945966748134_1_alg».proof.Proof.Gen.ReferenceIdeal
import proofs.«148661_j31945966748134_1_alg».proof.Proof.Gen.ReferenceIdeal.Run
import proofs.«148661_j31945966748134_1_alg».proof.Proof.Gen.ReferenceIdeal.Read
import proofs.«148661_j31945966748134_1_alg».proof.Proof.Gen.Pre_finite_inputs
import proofs.«148661_j31945966748134_1_alg».proof.Proof.KernelArray
import proofs.«148661_j31945966748134_1_alg».proof.Proof.RefRow

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the four arguments both programs end with the result array at `G` of those
    arguments: the kernel by its blocks (`KernelArray.run`), the reference by its stages (`RefRow.ref_eq`). -/
theorem algebraic : Cert.algebraic_KernelIdeal_ReferenceIdeal := by
  intro m ρ m' ρ' _ hagree
  refine ⟨_, Cert.DenseMlp.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.DenseMlp.RefRow.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
